-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S524288x128 .f32) (main_arg1 : FVec F S524288x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S524288x128 : Shape := ⟨2, ![524288, 128]⟩
abbrev S128x128 : Shape := ⟨2, ![128, 128]⟩
abbrev S128 : Shape := ⟨1, ![128]⟩
abbrev S128x384 : Shape := ⟨2, ![128, 384]⟩
abbrev S1x128 : Shape := ⟨2, ![1, 128]⟩
abbrev S4096x128 : Shape := ⟨2, ![4096, 128]⟩
abbrev S4096x384 : Shape := ⟨2, ![4096, 384]⟩

abbrev nBuf : Space → Nat
  | .hbm => 25
  | .vmem => 12
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x384, .f32⟩
  | .hbm, ⟨15, _⟩ => ⟨S128x384, .bf16⟩
  | .hbm, ⟨16, _⟩ => ⟨S128x384, .f32⟩
  | .hbm, ⟨17, _⟩ => ⟨S128x384, .bf16⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S524288x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x384, .bf16⟩
  | .local _ .vmem, ⟨5, _⟩ => ⟨S128x384, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S128x128_S128x128_S128x128_S128x384_d1 : Shape.Concatenates [S128x128, S128x128, S128x128] S128x384 1
  bitsLt_bf16_f32 : FTy.bits .bf16 < FTy.bits .f32
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S4096x384_o0_0_S4096x128 : S4096x384.Slices ![0, 0] S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S4096x384_o0_128_S4096x128 : S4096x384.Slices ![0, 128] S4096x128
  slices_S4096x384_o0_256_S4096x128 : S4096x384.Slices ![0, 256] S4096x128
  dot_S4096x128_S128x384_S4096x384_1_0_0_1_n_n_wf : DotDims.WF S4096x128 S128x384 S4096x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .bf16 = 32 ∨ (Rect.block (s := S128x384) S128x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S524288x128.size a
  hwx0_8 : ∀ i : grid0.Coords, EltTy.bits .f32 = 32 ∨ (Rect.block (s := S524288x128) S4096x128.size (cc0_transform_8 i) (hinb0_8 i)).WholeWords (EltTy.packing .f32)

variable [Facts₀]

def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S4096x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S524288x128, .f32⟩
  | .hbm, ⟨15, _⟩ => ⟨S1x128, .f32⟩
  | .hbm, ⟨16, _⟩ => ⟨S524288x128, .f32⟩
  | .hbm, ⟨17, _⟩ => ⟨S524288x128, .f32⟩
  | .hbm, ⟨18, _⟩ => ⟨S524288x128, .f32⟩
  | .hbm, ⟨19, _⟩ => ⟨S524288x128, .f32⟩
  | .hbm, ⟨20, _⟩ => ⟨S1x128, .f32⟩
  | .hbm, ⟨21, _⟩ => ⟨S524288x128, .f32⟩
  | .hbm, ⟨22, _⟩ => ⟨S524288x128, .f32⟩
  | .hbm, ⟨23, _⟩ => ⟨S524288x128, .f32⟩
  | .hbm, ⟨24, _⟩ => ⟨S524288x128, .f32⟩
  | .hbm, ⟨25, _⟩ => ⟨S_, .f32⟩
  | .hbm, ⟨26, _⟩ => ⟨S524288x128, .f32⟩
  | .hbm, ⟨27, _⟩ => ⟨S524288x128, .f32⟩
  | .hbm, ⟨28, _⟩ => ⟨S_, .f32⟩
  | .hbm, ⟨29, _⟩ => ⟨S524288x128, .f32⟩
  | .hbm, ⟨30, _⟩ => ⟨S524288x128, .f32⟩
  | .hbm, ⟨31, _⟩ => ⟨S524288x128, .f32⟩
  | .hbm, ⟨32, _⟩ => ⟨S1x128, .f32⟩
  | .hbm, ⟨33, _⟩ => ⟨S524288x128, .f32⟩
  | .hbm, ⟨34, _⟩ => ⟨S524288x128, .f32⟩
  | .hbm, ⟨35, _⟩ => ⟨S524288x128, .f32⟩
  | .hbm, ⟨36, _⟩ => ⟨S524288x128, .f32⟩
  | .hbm, ⟨37, _⟩ => ⟨S1x128, .f32⟩
  | .hbm, ⟨38, _⟩ => ⟨S524288x128, .f32⟩
  | .hbm, ⟨39, _⟩ => ⟨S524288x128, .f32⟩
  | .hbm, ⟨40, _⟩ => ⟨S524288x128, .f32⟩
  | .hbm, ⟨41, _⟩ => ⟨S524288x128, .f32⟩
  | .hbm, ⟨42, _⟩ => ⟨S_, .f32⟩
  | .hbm, ⟨43, _⟩ => ⟨S524288x128, .f32⟩
  | .hbm, ⟨44, _⟩ => ⟨S524288x128, .f32⟩
  | .hbm, ⟨45, _⟩ => ⟨S_, .f32⟩
  | .hbm, ⟨46, _⟩ => ⟨S524288x128, .f32⟩
  | .hbm, ⟨47, _⟩ => ⟨S524288x128, .f32⟩
  | .hbm, ⟨48, _⟩ => ⟨S524288x128, .f32⟩
  | .hbm, ⟨49, _⟩ => ⟨S1x128, .f32⟩
  | .hbm, ⟨50, _⟩ => ⟨S524288x128, .f32⟩
  | .hbm, ⟨51, _⟩ => ⟨S524288x128, .f32⟩
  | .hbm, ⟨52, _⟩ => ⟨S524288x128, .f32⟩
  | .hbm, ⟨53, _⟩ => ⟨S1x128, .f32⟩
  | .hbm, ⟨54, _⟩ => ⟨S524288x128, .f32⟩
  | .hbm, ⟨55, _⟩ => ⟨S524288x128, .f32⟩
  | .hbm, ⟨56, _⟩ => ⟨S524288x128, .f32⟩
  | .hbm, ⟨57, _⟩ => ⟨S524288x128, .f32⟩
  | .hbm, ⟨58, _⟩ => ⟨S524288x128, .f32⟩
  | .hbm, ⟨59, _⟩ => ⟨S524288x128, .f32⟩
  | .hbm, ⟨60, _⟩ => ⟨S_, .f32⟩
  | .hbm, ⟨61, _⟩ => ⟨S524288x128, .f32⟩
  | .hbm, ⟨62, _⟩ => ⟨S524288x128, .f32⟩
  | .hbm, ⟨63, _⟩ => ⟨S524288x128, .f32⟩
  | .hbm, ⟨64, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  dot_S524288x128_S128x128_S524288x128_1_0_0_1_n_n_wf : DotDims.WF S524288x128 S128x128 S524288x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.KernelEntry.lean ====
/-
  The program's @main up to its one region. Ten host operations come first: the three input-side weight matrices
  are laid side by side into one 128×384 matrix and narrowed, likewise the three memory-side ones, the two
  update-gate biases are added and the two reset-gate biases are added, and the four bias rows are reshaped to
  1×128. None of them writes an argument array, so the region finds every argument as launched (`V_main_argK`).
  Then: a window's block at a grid point read off the array as the region finds it (`iblk`); an input window's
  staging buffer holds that block at every point, fetched there or not (the six constant-index windows are fetched
  once and their index never moves); and the frame claim's post read off a run that ends with every array of the
  region at what the proof data computes and every other buffer as the region found it.
  Everything here is stated for any float instance.
-/
import proofs.«168314_j22892175687867_2_alg».proof.Proof.Gen.Kernel.Launch
import proofs.«168314_j22892175687867_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s TensorCore buffers when the region is entered: after the ten host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, for any proof data whose array is the
    region-entry contents and whose body leaves the block in place: fetched there, it is the block; unfetched, the
    index has not moved since the point before. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- Every argument array ends as launched: the two staged ones are inputs of the region (never written back), the
    other twelve are buffers no window stages, and no host operation writes any of the fourteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

end Cert.Kernel.Entry

end
-- ==== Proof.KernelRegion.lean ====
/-
  The kernel body at a grid point, and the run of the region.
  The body reads its eight input blocks whole — a 4096×128 block of each of the two activations, the two 128×384
  narrowed weight matrices, four 1×128 bias rows —, computes one 4096×128 value from them, reads its output buffer
  (the value read is not used) and overwrites the output buffer whole with the computed value. So after the body
  the output buffer holds that one value (`outBlock`: the single store covers the buffer) and every input buffer
  holds what it held. The proof data says exactly this at every grid point; the region's invariant is the class's
  (nothing scoped, nothing owed); and the library's frame theorem gives the run: every array of the region ends at
  what the proof data computes, every other buffer as the region found it. The argument arrays end as launched.
  Everything here is stated for any float instance.
-/
import proofs.«168314_j22892175687867_2_alg».proof.Proof.KernelEntry
import proofs.«168314_j22892175687867_2_alg».proof.Proof.Gen.Kernel.Skeleton

set_option maxRecDepth 16384

noncomputable section

namespace Cert.Kernel.Region

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer is read or written whole -/

abbrev rAct : Rect S4096x128 := Rect.unit (s := S4096x128) ![0, 0] S4096x128.size inb_S4096x128_S4096x128_0_0
abbrev rWt : Rect S128x384 := Rect.unit (s := S128x384) ![0, 0] S128x384.size inb_S128x384_S128x384_0_0
abbrev rBias : Rect S1x128 := Rect.unit (s := S1x128) ![0, 0] S1x128.size inb_S1x128_S1x128_0_0

/-! ## What the body leaves in the output buffer -/

/-- The output buffer after the body, from the eight input blocks: the one store's value — the update gate times
    the memory block plus (one minus the update gate) times the candidate —, written over the whole buffer. The
    bias rows reach the gates in the order the body reads them: update, reset, then the memory-side candidate bias
    before the input-side one. -/
def outBlock (x0 : Vec F S4096x128 .f32) (x1 : Vec F S4096x128 .f32) (x2 : Vec F S128x384 .bf16) (x3 : Vec F S128x384 .bf16) (x4 : Vec F S1x128 .f32) (x5 : Vec F S1x128 .f32) (x6 : Vec F S1x128 .f32) (x7 : Vec F S1x128 .f32) : Vec F S4096x128 .f32 :=
  View.canon [⟨rAct, k0_pay1
    (k0_pay4 (View.ld x0 rAct) (View.ld x1 rAct) (View.ld x2 rWt) (View.ld x3 rWt) (View.ld x4 rBias))
    (k0_pay5 (View.ld x0 rAct) (View.ld x1 rAct) (View.ld x2 rWt) (View.ld x3 rWt) (View.ld x5 rBias) (View.ld x7 rBias) (View.ld x6 rBias))
    (k0_pay6 (View.ld x0 rAct) (View.ld x1 rAct) (View.ld x2 rWt) (View.ld x3 rWt) (View.ld x4 rBias))
    (Scalar.ofBits .f32 0x3F800000#32)⟩]

/-- The one store covers the buffer. -/
theorem outCover (p0 : Vec F S4096x128 .f32) (y : S4096x128.Idx) :
    ∃ pc ∈ ([⟨rAct, p0⟩] : List (View.Piece (Elt F) S4096x128 .f32)), y ∈ pc.1.set :=
  View.cover_of_tiled [⟨rAct, p0⟩] S4096x128.size (by rfl) y

/-! ## The body's triple -/

set_option maxHeartbeats 1000000 in
/-- The body on whole staging memrefs, the inputs' at contents `xW` and the output's at anything, runs to the
    continuation holding the inputs' as they were and the output's at `outBlock` of the inputs'. -/
theorem sound_kernel (c : Dev nD) (E : Set ℕ) (i : grid0.Coords) (a0 : Memref sig .tc .vmem S4096x128 .f32) (ha0 : a0.IsWhole) (a1 : Memref sig .tc .vmem S4096x128 .f32) (ha1 : a1.IsWhole) (a2 : Memref sig .tc .vmem S128x384 .bf16) (ha2 : a2.IsWhole) (a3 : Memref sig .tc .vmem S128x384 .bf16) (ha3 : a3.IsWhole) (a4 : Memref sig .tc .vmem S1x128 .f32) (ha4 : a4.IsWhole) (a5 : Memref sig .tc .vmem S1x128 .f32) (ha5 : a5.IsWhole) (a6 : Memref sig .tc .vmem S1x128 .f32) (ha6 : a6.IsWhole) (a7 : Memref sig .tc .vmem S1x128 .f32) (ha7 : a7.IsWhole) (a8 : Memref sig .tc .vmem S4096x128 .f32) (ha8 : a8.IsWhole)
    (x0 : Vec F S4096x128 .f32) (x1 : Vec F S4096x128 .f32) (x2 : Vec F S128x384 .bf16) (x3 : Vec F S128x384 .bf16) (x4 : Vec F S1x128 .f32) (x5 : Vec F S1x128 .f32) (x6 : Vec F S1x128 .f32) (x7 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (outBlock x0 x1 x2 x3 x4 x5 x6 x7)) -∗ K ⟨⟩))
      ⊢ wp frame (wpE (defs₀ (F := F)) Variants.none c none) E (cc0__gru_kernel i a0 ha0 a1 ha1 a2 ha2 a3 ha3 a4 ha4 a5 ha5 a6 ha6 a7 ha7 a8 ha8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outCover _)

/-! ## The region's proof data -/

/-- On core `c`: the arrays as the region finds them; after the body at point `t` each input's buffer at its block
    and the output's at `outBlock` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the region at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Region

end
-- ==== Proof.KernelIdealEntry.lean ====
/-
  The program's @main up to its one region. Ten host operations come first: the three input-side weight matrices
  are laid side by side into one 128×384 matrix and narrowed, likewise the three memory-side ones, the two
  update-gate biases are added and the two reset-gate biases are added, and the four bias rows are reshaped to
  1×128. None of them writes an argument array, so the region finds every argument as launched (`V_main_argK`).
  Then: a window's block at a grid point read off the array as the region finds it (`iblk`); an input window's
  staging buffer holds that block at every point, fetched there or not (the six constant-index windows are fetched
  once and their index never moves); and the frame claim's post read off a run that ends with every array of the
  region at what the proof data computes and every other buffer as the region found it.
  Everything here is stated for any float instance.
-/
import proofs.«168314_j22892175687867_2_alg».proof.Proof.Gen.KernelIdeal.Launch
import proofs.«168314_j22892175687867_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s TensorCore buffers when the region is entered: after the ten host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, for any proof data whose array is the
    region-entry contents and whose body leaves the block in place: fetched there, it is the block; unfetched, the
    index has not moved since the point before. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- Every argument array ends as launched: the two staged ones are inputs of the region (never written back), the
    other twelve are buffers no window stages, and no host operation writes any of the fourteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

end Cert.KernelIdeal.Entry

end
-- ==== Proof.KernelIdealRegion.lean ====
/-
  The kernel body at a grid point, and the run of the region.
  The body reads its eight input blocks whole — a 4096×128 block of each of the two activations, the two 128×384
  narrowed weight matrices, four 1×128 bias rows —, computes one 4096×128 value from them, reads its output buffer
  (the value read is not used) and overwrites the output buffer whole with the computed value. So after the body
  the output buffer holds that one value (`outBlock`: the single store covers the buffer) and every input buffer
  holds what it held. The proof data says exactly this at every grid point; the region's invariant is the class's
  (nothing scoped, nothing owed); and the library's frame theorem gives the run: every array of the region ends at
  what the proof data computes, every other buffer as the region found it. The argument arrays end as launched.
  Everything here is stated for any float instance.
-/
import proofs.«168314_j22892175687867_2_alg».proof.Proof.KernelIdealEntry
import proofs.«168314_j22892175687867_2_alg».proof.Proof.Gen.KernelIdeal.Skeleton

set_option maxRecDepth 16384

noncomputable section

namespace Cert.KernelIdeal.Region

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer is read or written whole -/

abbrev rAct : Rect S4096x128 := Rect.unit (s := S4096x128) ![0, 0] S4096x128.size inb_S4096x128_S4096x128_0_0
abbrev rWt : Rect S128x384 := Rect.unit (s := S128x384) ![0, 0] S128x384.size inb_S128x384_S128x384_0_0
abbrev rBias : Rect S1x128 := Rect.unit (s := S1x128) ![0, 0] S1x128.size inb_S1x128_S1x128_0_0

/-! ## What the body leaves in the output buffer -/

/-- The output buffer after the body, from the eight input blocks: the one store's value — the update gate times
    the memory block plus (one minus the update gate) times the candidate —, written over the whole buffer. The
    bias rows reach the gates in the order the body reads them: update, reset, then the memory-side candidate bias
    before the input-side one. -/
def outBlock (x0 : Vec F S4096x128 .f32) (x1 : Vec F S4096x128 .f32) (x2 : Vec F S128x384 .bf16) (x3 : Vec F S128x384 .bf16) (x4 : Vec F S1x128 .f32) (x5 : Vec F S1x128 .f32) (x6 : Vec F S1x128 .f32) (x7 : Vec F S1x128 .f32) : Vec F S4096x128 .f32 :=
  View.canon [⟨rAct, k0_pay1
    (k0_pay4 (View.ld x0 rAct) (View.ld x1 rAct) (View.ld x2 rWt) (View.ld x3 rWt) (View.ld x4 rBias))
    (k0_pay5 (View.ld x0 rAct) (View.ld x1 rAct) (View.ld x2 rWt) (View.ld x3 rWt) (View.ld x5 rBias) (View.ld x7 rBias) (View.ld x6 rBias))
    (k0_pay6 (View.ld x0 rAct) (View.ld x1 rAct) (View.ld x2 rWt) (View.ld x3 rWt) (View.ld x4 rBias))
    (Scalar.ofBits .f32 0x3F800000#32)⟩]

/-- The one store covers the buffer. -/
theorem outCover (p0 : Vec F S4096x128 .f32) (y : S4096x128.Idx) :
    ∃ pc ∈ ([⟨rAct, p0⟩] : List (View.Piece (Elt F) S4096x128 .f32)), y ∈ pc.1.set :=
  View.cover_of_tiled [⟨rAct, p0⟩] S4096x128.size (by rfl) y

/-! ## The body's triple -/

set_option maxHeartbeats 1000000 in
/-- The body on whole staging memrefs, the inputs' at contents `xW` and the output's at anything, runs to the
    continuation holding the inputs' as they were and the output's at `outBlock` of the inputs'. -/
theorem sound_kernel (c : Dev nD) (E : Set ℕ) (i : grid0.Coords) (a0 : Memref sig .tc .vmem S4096x128 .f32) (ha0 : a0.IsWhole) (a1 : Memref sig .tc .vmem S4096x128 .f32) (ha1 : a1.IsWhole) (a2 : Memref sig .tc .vmem S128x384 .bf16) (ha2 : a2.IsWhole) (a3 : Memref sig .tc .vmem S128x384 .bf16) (ha3 : a3.IsWhole) (a4 : Memref sig .tc .vmem S1x128 .f32) (ha4 : a4.IsWhole) (a5 : Memref sig .tc .vmem S1x128 .f32) (ha5 : a5.IsWhole) (a6 : Memref sig .tc .vmem S1x128 .f32) (ha6 : a6.IsWhole) (a7 : Memref sig .tc .vmem S1x128 .f32) (ha7 : a7.IsWhole) (a8 : Memref sig .tc .vmem S4096x128 .f32) (ha8 : a8.IsWhole)
    (x0 : Vec F S4096x128 .f32) (x1 : Vec F S4096x128 .f32) (x2 : Vec F S128x384 .bf16) (x3 : Vec F S128x384 .bf16) (x4 : Vec F S1x128 .f32) (x5 : Vec F S1x128 .f32) (x6 : Vec F S1x128 .f32) (x7 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (outBlock x0 x1 x2 x3 x4 x5 x6 x7)) -∗ K ⟨⟩))
      ⊢ wp frame (wpE (defs₀ (F := F)) Variants.none c none) E (cc0__gru_kernel i a0 ha0 a1 ha1 a2 ha2 a3 ha3 a4 ha4 a5 ha5 a6 ha6 a7 ha7 a8 ha8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outCover _)

/-! ## The region's proof data -/

/-- On core `c`: the arrays as the region finds them; after the body at point `t` each input's buffer at its block
    and the output's at `outBlock` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the region at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Region

end
-- ==== Proof.GruCell.lean ====
/-
  One step of a gated recurrent cell, as a function on extended reals and then on whole arrays.

  For a row `r` of the two activation arrays `x` (input) and `h` (memory), six weight matrices and six bias
  vectors, column `j` of the result is

      z · h[r,j] + (1 − z) · tanh (x[r,:]·Wci[:,j] + bci[j] + ρ · (h[r,:]·Wcm[:,j] + bcm[j]))

  with the update gate  z = σ (x[r,:]·Wzi[:,j] + bzi[j] + h[r,:]·Wzm[:,j] + bzm[j])  and the reset gate
  ρ = σ (x[r,:]·Wri[:,j] + bri[j] + h[r,:]·Wrm[:,j] + brm[j]),  σ the logistic function  1 / (1 + e^(−u)).

  Two spellings of a gate meet here. One adds the two products first and the two biases first, and applies the
  logistic function as one operation; the other adds product, bias, product, bias from the left and spells the
  logistic function as a quotient with the constant one written as the float word 0x3F800000. They are one
  function on every extended real: addition of extended reals is commutative and associative (no finiteness is
  needed), and the word 0x3F800000 denotes 1.
-/
import Idealize.ShloMosaic.PureOps.Ideal
import Idealize.ShloMosaic.Lib.ValueIdx
import Idealize.ShloMosaic.Lib.IdealHost

noncomputable section

namespace Cert.Gru

open Idealize.ShloMosaic Idealize.ShloMosaic.ValueIdx

/-- The activations: 524288 rows of 128. -/
abbrev Acts : Shape := ⟨2, ![524288, 128]⟩
/-- A weight matrix: 128 × 128. -/
abbrev Wts : Shape := ⟨2, ![128, 128]⟩
/-- A bias vector: 128. -/
abbrev Bias : Shape := ⟨1, ![128]⟩

/-- The float word of the constant one. -/
abbrev oneWord : EReal := Ideal.ofBits .f32 0x3F800000#32

/-- Row `r` of `a` times column `j` of `W`. -/
def proj (a : Acts.Idx → EReal) (W : Wts.Idx → EReal) (r : Fin 524288) (j : Fin 128) : EReal :=
  ∑ k : Fin 128, a (ix2 r k) * W (ix2 k j)

/-- A gate: the logistic function of input product, input bias, memory product, memory bias, added from the left. -/
def gate (p q b1 b2 : EReal) : EReal := Ideal.logistic (p + b1 + q + b2)

/-- The gate with the products added first and the biases added first. -/
theorem gate_paired (p q b1 b2 : EReal) : Ideal.logistic (p + q + (b1 + b2)) = gate p q b1 b2 := by
  unfold gate
  rw [add_add_add_comm, ← add_assoc]

/-- The gate with the logistic function spelled as a quotient over the float word of one. -/
theorem gate_spelled (p q b1 b2 : EReal) :
    Ideal.div oneWord (oneWord + Ideal.exp (-(p + b1 + q + b2))) = gate p q b1 b2 := by
  unfold gate Ideal.logistic oneWord
  rw [Ideal.ofBits_one_f32]

/-- The cell's output from its two gates, the candidate's two products and biases, and the memory entry. -/
def cell (z ρ pc qc bci bcm hh : EReal) : EReal :=
  z * hh + (oneWord - z) * Ideal.tanh (pc + bci + ρ * (qc + bcm))

/-- The whole result array. -/
def G (x h : Acts.Idx → EReal) (Wzi Wzm Wri Wrm Wci Wcm : Wts.Idx → EReal) (bzi bzm bri brm bci bcm : Bias.Idx → EReal) :
    Acts.Idx → EReal := fun i =>
  cell (gate (proj x Wzi (i 0) (i 1)) (proj h Wzm (i 0) (i 1)) (bzi (ix1 (i 1))) (bzm (ix1 (i 1))))
    (gate (proj x Wri (i 0) (i 1)) (proj h Wrm (i 0) (i 1)) (bri (ix1 (i 1))) (brm (ix1 (i 1))))
    (proj x Wci (i 0) (i 1)) (proj h Wcm (i 0) (i 1)) (bci (ix1 (i 1))) (bcm (ix1 (i 1))) (h i)

end Cert.Gru

end
-- ==== Proof.KernelIdealBlock.lean ====
/-
  The value the kernel body stores, read at one entry of the 4096×128 output block.

  The body multiplies its 4096×128 activation block by the 128×384 fused weight matrix (three 128×128 matrices side by
  side), once for the input activations and once for the memory activations; a narrowing of the float format is the
  identity on extended reals and the product into a zero accumulator is the plain sum over the contracted index. Column
  group 0 (columns 0–127) of the two products, added, plus the update bias row gives the update gate; column group 1
  (128–255) plus the reset bias row the reset gate; column group 2 (256–383) the two candidate products. Entry (p, q) of
  the stored value is therefore the cell's output from those, with the memory block's entry (p, q).
-/
import proofs.«168314_j22892175687867_2_alg».proof.Proof.KernelIdealRegion
import proofs.«168314_j22892175687867_2_alg».proof.Proof.GruCell
import Idealize.ShloMosaic.Lib.Pipeline.Value
import Idealize.ShloMosaic.Lib.ValueIdx
import Idealize.ShloMosaic.PureOps.Ideal.Laws

set_option maxRecDepth 16384

noncomputable section

namespace Cert.KernelIdeal.Block

open Cert.KernelIdeal Cert.KernelIdeal.Gen Cert.KernelIdeal.Region
open Idealize.ShloMosaic Idealize.ShloMosaic.ValueIdx Cert.Gru

/-- The block product's dimensions: rows × 128 times 128 × columns. -/
abbrev DD : DotDims S4096x128 S128x384 S4096x384 := dot_S4096x128_S128x384_S4096x384_1_0_0_1_n_n

/-- Column `q` of column group `g` of the fused 384-column matrix. -/
def col (g : Fin 3) (q : Fin 128) : Fin 384 := ⟨128 * g.val + q.val, by have := g.isLt; have := q.isLt; omega⟩

/-- Row `p` of `a` times column `q'` of `w`. -/
def rowCol (a : FVec Ideal S4096x128 .f32) (w : FVec Ideal S128x384 .bf16) (p : Fin 4096) (q' : Fin 384) : EReal :=
  ∑ k : Fin 128, a (ix2 p k) * w (ix2 k q')

theorem allZero : (![0, 0] : Fin 2 → Nat) = fun _ => 0 := funext fun a => by fin_cases a <;> rfl

/-! ## The product's operand indices -/

theorem lhs_row (i : S4096x384.Idx) (q : DD.contr.Idx) : (DD.lhsIdx i q 0).val = (i 0).val := by
  unfold DotDims.lhsIdx
  rw [dif_neg (show ¬(0 : Fin S4096x128.rank) ∈ DD.lhsBatch by decide), dif_pos (show (0 : Fin S4096x128.rank) ∈ DD.lhsNonContracting by decide)]
  rfl
theorem lhs_contr (i : S4096x384.Idx) (q : DD.contr.Idx) : (DD.lhsIdx i q 1).val = (q ⟨0, by decide⟩).val :=
  DD.lhsIdx_val_of_single rfl i q
theorem rhs_contr (i : S4096x384.Idx) (q : DD.contr.Idx) : (DD.rhsIdx i q 0).val = (q ⟨0, by decide⟩).val :=
  DD.rhsIdx_val_of_single rfl i q
theorem rhs_col (i : S4096x384.Idx) (q : DD.contr.Idx) : (DD.rhsIdx i q 1).val = (i 1).val := by
  unfold DotDims.rhsIdx
  rw [dif_neg (show ¬(1 : Fin S128x384.rank) ∈ DD.rhsBatch by decide), dif_pos (show (1 : Fin S128x384.rank) ∈ DD.rhsNonContracting by decide)]
  rfl

/-- The block product into a zero accumulator, at an entry: the sum over the contracted index. -/
theorem product_apply (a : FVec Ideal S4096x128 .bf16) (w : FVec Ideal S128x384 .bf16) (p : Fin 4096) (q' : Fin 384) :
    matmul DD none a w (constant (F := Ideal) S4096x384 .f32 0x00000000#32) (ix2 p q') = ∑ k : Fin 128, a (ix2 p k) * w (ix2 k q') := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q') ((contrEquiv1 DD 128 rfl rfl).symm k) = ix2 p k := funext fun a => Fin.ext (by
    match a with
    | ⟨0, _⟩ => exact lhs_row _ _
    | ⟨1, _⟩ => exact (lhs_contr _ _).trans hk)
  have er : DD.rhsIdx (ix2 p q') ((contrEquiv1 DD 128 rfl rfl).symm k) = ix2 k q' := funext fun a => Fin.ext (by
    match a with
    | ⟨0, _⟩ => exact (rhs_contr _ _).trans hk
    | ⟨1, _⟩ => exact rhs_col _ _)
  rw [el, er]

/-- The input-side product of the body, at an entry. -/
theorem inputProduct_apply (a : FVec Ideal S4096x128 .f32) (w : FVec Ideal S128x384 .bf16) (p : Fin 4096) (q' : Fin 384) :
    k0_pay2 (F := Ideal) a w (ix2 p q') = rowCol a w p q' := by
  unfold k0_pay2
  refine (product_apply (truncf .bf16 a _) (shapeCast S128x384 w _) p q').trans ?_
  rw [shapeCast_self]
  rfl

/-- The memory-side product of the body, at an entry. -/
theorem memoryProduct_apply (a : FVec Ideal S4096x128 .f32) (w : FVec Ideal S128x384 .bf16) (p : Fin 4096) (q' : Fin 384) :
    k0_pay3 (F := Ideal) a w (ix2 p q') = rowCol a w p q' := by
  unfold k0_pay3
  refine (product_apply (truncf .bf16 a _) (shapeCast S128x384 w _) p q').trans ?_
  rw [shapeCast_self]
  rfl

/-! ## Layout operations at an entry -/

/-- A 128-column slice of a 384-column value starting at column `off`, at an entry. -/
theorem slice_apply (v : FVec Ideal S4096x384 .f32) (off : Nat) (h : S4096x384.Slices ![0, off] S4096x128)
    (p : Fin 4096) (q : Fin 128) (q' : Fin 384) (hq : q'.val = off + q.val) :
    extractStridedSlice S4096x128 ![0, off] v h (ix2 p q) = v (ix2 p q') :=
  extractStridedSlice_apply ![0, off] v h (ix2 p q) (ix2 p q') (fun a => by
    match a with
    | ⟨0, _⟩ => show p.val = 0 + p.val; omega
    | ⟨1, _⟩ => exact hq)

/-- A 1×128 bias row broadcast along the 4096 rows, at an entry. -/
theorem biasRow_apply (b : FVec Ideal S1x128 .f32) (h1 : S1x128.ShapeCasts S1x128) (h2 : S1x128.Broadcasts S4096x128)
    (p : Fin 4096) (q : Fin 128) :
    broadcastTo S4096x128 (shapeCast S1x128 b h1) h2 (ix2 p q) = b (ix2 (0 : Fin 1) q) := by
  rw [shapeCast_self]
  exact broadcastTo_apply b h2 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-! ## The gates and the stored value at an entry -/

/-- The update gate at an entry. -/
theorem updateGate_apply (x0 x1 : FVec Ideal S4096x128 .f32) (x2 x3 : FVec Ideal S128x384 .bf16) (x4 : FVec Ideal S1x128 .f32)
    (p : Fin 4096) (q : Fin 128) :
    k0_pay4 (F := Ideal) x0 x1 x2 x3 x4 (ix2 p q)
      = Ideal.logistic (rowCol x0 x2 p (col 0 q) + rowCol x1 x3 p (col 0 q) + x4 (ix2 (0 : Fin 1) q)) := by
  unfold k0_pay4
  show Ideal.logistic (extractStridedSlice S4096x128 ![0, 0] (k0_pay2 (F := Ideal) x0 x2) _ (ix2 p q)
      + extractStridedSlice S4096x128 ![0, 0] (k0_pay3 (F := Ideal) x1 x3) _ (ix2 p q)
      + broadcastTo S4096x128 (shapeCast S1x128 x4 _) _ (ix2 p q)) = _
  rw [slice_apply _ 0 _ p q (col 0 q) (by simp [col]), slice_apply _ 0 _ p q (col 0 q) (by simp [col]), biasRow_apply,
    inputProduct_apply, memoryProduct_apply]

/-- The candidate (the hyperbolic tangent's value) at an entry. -/
theorem candidate_apply (x0 x1 : FVec Ideal S4096x128 .f32) (x2 x3 : FVec Ideal S128x384 .bf16) (x5 x7 x6 : FVec Ideal S1x128 .f32)
    (p : Fin 4096) (q : Fin 128) :
    k0_pay5 (F := Ideal) x0 x1 x2 x3 x5 x7 x6 (ix2 p q)
      = Ideal.tanh (rowCol x0 x2 p (col 2 q) + x6 (ix2 (0 : Fin 1) q)
          + Ideal.logistic (rowCol x0 x2 p (col 1 q) + rowCol x1 x3 p (col 1 q) + x5 (ix2 (0 : Fin 1) q))
            * (rowCol x1 x3 p (col 2 q) + x7 (ix2 (0 : Fin 1) q))) := by
  unfold k0_pay5
  show Ideal.tanh (extractStridedSlice S4096x128 ![0, 256] (k0_pay2 (F := Ideal) x0 x2) _ (ix2 p q)
        + broadcastTo S4096x128 (shapeCast S1x128 x6 _) _ (ix2 p q)
      + Ideal.logistic (extractStridedSlice S4096x128 ![0, 128] (k0_pay2 (F := Ideal) x0 x2) _ (ix2 p q)
          + extractStridedSlice S4096x128 ![0, 128] (k0_pay3 (F := Ideal) x1 x3) _ (ix2 p q)
          + broadcastTo S4096x128 (shapeCast S1x128 x5 _) _ (ix2 p q))
        * (extractStridedSlice S4096x128 ![0, 256] (k0_pay3 (F := Ideal) x1 x3) _ (ix2 p q)
          + broadcastTo S4096x128 (shapeCast S1x128 x7 _) _ (ix2 p q))) = _
  rw [slice_apply _ 256 _ p q (col 2 q) (by simp [col]), slice_apply _ 128 _ p q (col 1 q) (by simp [col]),
    slice_apply _ 128 _ p q (col 1 q) (by simp [col]), slice_apply _ 256 _ p q (col 2 q) (by simp [col]),
    biasRow_apply, biasRow_apply, biasRow_apply, inputProduct_apply, inputProduct_apply, memoryProduct_apply, memoryProduct_apply]

/-- THE STORED VALUE at entry (p, q): the cell's output from the gates and products of row `p` of the two activation
    blocks, the fused matrices' three column groups at `q`, the four bias rows at `q`, and the memory block's entry. -/
theorem outBlock_apply (x0 x1 : FVec Ideal S4096x128 .f32) (x2 x3 : FVec Ideal S128x384 .bf16) (x4 x5 x6 x7 : FVec Ideal S1x128 .f32)
    (p : Fin 4096) (q : Fin 128) :
    outBlock (F := Ideal) x0 x1 x2 x3 x4 x5 x6 x7 (ix2 p q)
      = cell (Ideal.logistic (rowCol x0 x2 p (col 0 q) + rowCol x1 x3 p (col 0 q) + x4 (ix2 (0 : Fin 1) q)))
          (Ideal.logistic (rowCol x0 x2 p (col 1 q) + rowCol x1 x3 p (col 1 q) + x5 (ix2 (0 : Fin 1) q)))
          (rowCol x0 x2 p (col 2 q)) (rowCol x1 x3 p (col 2 q)) (x6 (ix2 (0 : Fin 1) q)) (x7 (ix2 (0 : Fin 1) q)) (x1 (ix2 p q)) := by
  unfold outBlock
  rw [View.canon_unit_zero allZero]
  simp only [View.ld_unit_zero (S := S4096x128) allZero, View.ld_unit_zero (S := S128x384) allZero, View.ld_unit_zero (S := S1x128) allZero]
  unfold k0_pay1 k0_pay6
  show k0_pay4 (F := Ideal) x0 x1 x2 x3 x4 (ix2 p q) * x1 (ix2 p q)
      + (oneWord - k0_pay4 (F := Ideal) x0 x1 x2 x3 x4 (ix2 p q)) * k0_pay5 (F := Ideal) x0 x1 x2 x3 x5 x7 x6 (ix2 p q) = _
  rw [updateGate_apply, candidate_apply]
  rfl

end Cert.KernelIdeal.Block

end
-- ==== Proof.KernelIdealEntryValues.lean ====
/-
  What the region finds in the six arrays the host operations wrote, entry by entry, at the exact values.

  The fused input-side matrix is the three input-side weight matrices side by side, narrowed (the identity on extended
  reals): its entry (k, 128·g + q) is entry (k, q) of matrix g — update, reset, candidate. Likewise the fused memory-side
  matrix. The update bias row is the sum of the two update bias vectors, reshaped from 128 to 1×128: its entry (0, q) is
  the sum of the two vectors' entries q. Likewise the reset bias row. The two candidate bias rows are the two candidate
  bias vectors reshaped.
-/
import proofs.«168314_j22892175687867_2_alg».proof.Proof.KernelIdealEntry
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.EntryValues

open Cert.KernelIdeal Cert.KernelIdeal.Gen Cert.KernelIdeal.Entry
open Idealize.ShloMosaic Idealize.ShloMosaic.TcCoe Idealize.SL.Sem Idealize.ShloMosaic.StableHlo Idealize.ShloMosaic.ValueIdx

/-! ## Three matrices side by side, at an entry -/

section SideBySide
variable (a0 a1 a2 : FVec Ideal S128x128 .f32) (h : Shape.Concatenates [S128x128, S128x128, S128x128] S128x384 1)
  (k q : Fin 128) (q' : Fin 384)

theorem sideBySide_first (hq : q'.val = q.val) :
    concatenate S128x384 1 [⟨S128x128, a0⟩, ⟨S128x128, a1⟩, ⟨S128x128, a2⟩] h (ix2 k q') = a0 (ix2 k q) :=
  concatenate_apply_piece (t := S128x384) (1 : Fin 2) [⟨S128x128, a0⟩, ⟨S128x128, a1⟩, ⟨S128x128, a2⟩] h (ix2 k q') 0 (by show 0 < 3; omega) S128x128 a0 rfl rfl 0 rfl (ix2 k q)
    (fun b hb => by
      match b with
      | ⟨0, _⟩ => rfl
      | ⟨1, _⟩ => exact absurd (Fin.ext rfl) hb)
    (by show 0 + q.val = q'.val; omega)

theorem sideBySide_second (hq : q'.val = 128 + q.val) :
    concatenate S128x384 1 [⟨S128x128, a0⟩, ⟨S128x128, a1⟩, ⟨S128x128, a2⟩] h (ix2 k q') = a1 (ix2 k q) :=
  concatenate_apply_piece (t := S128x384) (1 : Fin 2) [⟨S128x128, a0⟩, ⟨S128x128, a1⟩, ⟨S128x128, a2⟩] h (ix2 k q') 1 (by show 1 < 3; omega) S128x128 a1 rfl rfl 128 rfl (ix2 k q)
    (fun b hb => by
      match b with
      | ⟨0, _⟩ => rfl
      | ⟨1, _⟩ => exact absurd (Fin.ext rfl) hb)
    (by show 128 + q.val = q'.val; omega)

theorem sideBySide_third (hq : q'.val = 256 + q.val) :
    concatenate S128x384 1 [⟨S128x128, a0⟩, ⟨S128x128, a1⟩, ⟨S128x128, a2⟩] h (ix2 k q') = a2 (ix2 k q) :=
  concatenate_apply_piece (t := S128x384) (1 : Fin 2) [⟨S128x128, a0⟩, ⟨S128x128, a1⟩, ⟨S128x128, a2⟩] h (ix2 k q') 2 (by show 2 < 3; omega) S128x128 a2 rfl rfl 256 rfl (ix2 k q)
    (fun b hb => by
      match b with
      | ⟨0, _⟩ => rfl
      | ⟨1, _⟩ => exact absurd (Fin.ext rfl) hb)
    (by show 256 + q.val = q'.val; omega)

end SideBySide

/-- A 128-vector reshaped to a 1×128 row, at an entry. -/
theorem row_apply (v : FVec Ideal S128 .f32) (h : S128.ShapeCasts S1x128) (q : Fin 128) :
    shapeCast S1x128 v h (ix2 (0 : Fin 1) q) = v (ix1 q) :=
  shapeCast_apply v h (ix2 (0 : Fin 1) q) (ix1 q) (by
    rw [Shape.rowMajor_val_one, Shape.rowMajor_val_two]
    show q.val = 0 * 128 + q.val
    omega)

variable (m : (ℓ : Loc nD τ sig) → Buf (Elt Ideal) ℓ) (c : Dev nD)

/-! ## The fourteen argument arrays as launched, by role: the two activation arrays, and per gate (update z, reset r,
    candidate c) and side (input i, memory m) a weight matrix W and a bias vector b -/

abbrev arg_x : FVec Ideal S524288x128 .f32 := m ((c : Thread nD τ).loc main_arg0)
abbrev arg_h : FVec Ideal S524288x128 .f32 := m ((c : Thread nD τ).loc main_arg1)
abbrev arg_Wzi : FVec Ideal S128x128 .f32 := m ((c : Thread nD τ).loc main_arg2)
abbrev arg_bzi : FVec Ideal S128 .f32 := m ((c : Thread nD τ).loc main_arg3)
abbrev arg_Wzm : FVec Ideal S128x128 .f32 := m ((c : Thread nD τ).loc main_arg4)
abbrev arg_bzm : FVec Ideal S128 .f32 := m ((c : Thread nD τ).loc main_arg5)
abbrev arg_Wri : FVec Ideal S128x128 .f32 := m ((c : Thread nD τ).loc main_arg6)
abbrev arg_bri : FVec Ideal S128 .f32 := m ((c : Thread nD τ).loc main_arg7)
abbrev arg_Wrm : FVec Ideal S128x128 .f32 := m ((c : Thread nD τ).loc main_arg8)
abbrev arg_brm : FVec Ideal S128 .f32 := m ((c : Thread nD τ).loc main_arg9)
abbrev arg_Wci : FVec Ideal S128x128 .f32 := m ((c : Thread nD τ).loc main_arg10)
abbrev arg_bci : FVec Ideal S128 .f32 := m ((c : Thread nD τ).loc main_arg11)
abbrev arg_Wcm : FVec Ideal S128x128 .f32 := m ((c : Thread nD τ).loc main_arg12)
abbrev arg_bcm : FVec Ideal S128 .f32 := m ((c : Thread nD τ).loc main_arg13)

/-! ## The six arrays the host operations wrote, as the region finds them -/

theorem inputWeights_eq : @Eq (FVec Ideal S128x384 .bf16) (V m c main_v1)
    (truncf .bf16 (concatenate S128x384 1 [⟨S128x128, (arg_Wzi m c)⟩, ⟨S128x128, (arg_Wri m c)⟩, ⟨S128x128, (arg_Wci m c)⟩]
        concatenates_S128x128_S128x128_S128x128_S128x384_d1) bitsLt_bf16_f32) := by
  dsimp only [V, hostOps0]; after_results; rfl

theorem memoryWeights_eq : @Eq (FVec Ideal S128x384 .bf16) (V m c main_v3)
    (truncf .bf16 (concatenate S128x384 1 [⟨S128x128, (arg_Wzm m c)⟩, ⟨S128x128, (arg_Wrm m c)⟩, ⟨S128x128, (arg_Wcm m c)⟩]
        concatenates_S128x128_S128x128_S128x128_S128x384_d1) bitsLt_bf16_f32) := by
  dsimp only [V, hostOps0]; after_results; rfl

theorem updateBias_eq : @Eq (FVec Ideal S1x128 .f32) (V m c main_v5)
    (shapeCast S1x128 (addf (arg_bzi m c) (arg_bzm m c)) shapeCasts_S128_S1x128) := by
  dsimp only [V, hostOps0]; after_results; rfl

theorem resetBias_eq : @Eq (FVec Ideal S1x128 .f32) (V m c main_v7)
    (shapeCast S1x128 (addf (arg_bri m c) (arg_brm m c)) shapeCasts_S128_S1x128) := by
  dsimp only [V, hostOps0]; after_results; rfl

theorem inputCandBias_eq : @Eq (FVec Ideal S1x128 .f32) (V m c main_v8)
    (shapeCast S1x128 (arg_bci m c) shapeCasts_S128_S1x128) := by
  dsimp only [V, hostOps0]; after_results; rfl

theorem memoryCandBias_eq : @Eq (FVec Ideal S1x128 .f32) (V m c main_v9)
    (shapeCast S1x128 (arg_bcm m c) shapeCasts_S128_S1x128) := by
  dsimp only [V, hostOps0]; after_results; rfl

/-! ## … entry by entry -/

/-- The fused input-side matrix as a function. -/
abbrev fusedInput : FVec Ideal S128x384 .bf16 := V m c main_v1
/-- The fused memory-side matrix as a function. -/
abbrev fusedMemory : FVec Ideal S128x384 .bf16 := V m c main_v3
/-- The four bias rows as functions. -/
abbrev updateBiasRow : FVec Ideal S1x128 .f32 := V m c main_v5
abbrev resetBiasRow : FVec Ideal S1x128 .f32 := V m c main_v7
abbrev inputCandBiasRow : FVec Ideal S1x128 .f32 := V m c main_v8
abbrev memoryCandBiasRow : FVec Ideal S1x128 .f32 := V m c main_v9

/-- Column group `g` of the fused input-side matrix is input-side matrix `g`. -/
theorem fusedInput_update (k q : Fin 128) (q' : Fin 384) (hq : q'.val = q.val) :
    fusedInput m c (ix2 k q') = (arg_Wzi m c) (ix2 k q) := by
  unfold fusedInput; rw [inputWeights_eq]; exact sideBySide_first (arg_Wzi m c) (arg_Wri m c) (arg_Wci m c) concatenates_S128x128_S128x128_S128x128_S128x384_d1 k q q' hq
theorem fusedInput_reset (k q : Fin 128) (q' : Fin 384) (hq : q'.val = 128 + q.val) :
    fusedInput m c (ix2 k q') = (arg_Wri m c) (ix2 k q) := by
  unfold fusedInput; rw [inputWeights_eq]; exact sideBySide_second (arg_Wzi m c) (arg_Wri m c) (arg_Wci m c) concatenates_S128x128_S128x128_S128x128_S128x384_d1 k q q' hq
theorem fusedInput_cand (k q : Fin 128) (q' : Fin 384) (hq : q'.val = 256 + q.val) :
    fusedInput m c (ix2 k q') = (arg_Wci m c) (ix2 k q) := by
  unfold fusedInput; rw [inputWeights_eq]; exact sideBySide_third (arg_Wzi m c) (arg_Wri m c) (arg_Wci m c) concatenates_S128x128_S128x128_S128x128_S128x384_d1 k q q' hq

/-- Column group `g` of the fused memory-side matrix is memory-side matrix `g`. -/
theorem fusedMemory_update (k q : Fin 128) (q' : Fin 384) (hq : q'.val = q.val) :
    fusedMemory m c (ix2 k q') = (arg_Wzm m c) (ix2 k q) := by
  unfold fusedMemory; rw [memoryWeights_eq]; exact sideBySide_first (arg_Wzm m c) (arg_Wrm m c) (arg_Wcm m c) concatenates_S128x128_S128x128_S128x128_S128x384_d1 k q q' hq
theorem fusedMemory_reset (k q : Fin 128) (q' : Fin 384) (hq : q'.val = 128 + q.val) :
    fusedMemory m c (ix2 k q') = (arg_Wrm m c) (ix2 k q) := by
  unfold fusedMemory; rw [memoryWeights_eq]; exact sideBySide_second (arg_Wzm m c) (arg_Wrm m c) (arg_Wcm m c) concatenates_S128x128_S128x128_S128x128_S128x384_d1 k q q' hq
theorem fusedMemory_cand (k q : Fin 128) (q' : Fin 384) (hq : q'.val = 256 + q.val) :
    fusedMemory m c (ix2 k q') = (arg_Wcm m c) (ix2 k q) := by
  unfold fusedMemory; rw [memoryWeights_eq]; exact sideBySide_third (arg_Wzm m c) (arg_Wrm m c) (arg_Wcm m c) concatenates_S128x128_S128x128_S128x128_S128x384_d1 k q q' hq

/-- The bias rows. -/
theorem updateBiasRow_apply (q : Fin 128) :
    updateBiasRow m c (ix2 (0 : Fin 1) q) = (arg_bzi m c) (ix1 q) + (arg_bzm m c) (ix1 q) := by
  unfold updateBiasRow; rw [updateBias_eq, row_apply]; rfl
theorem resetBiasRow_apply (q : Fin 128) :
    resetBiasRow m c (ix2 (0 : Fin 1) q) = (arg_bri m c) (ix1 q) + (arg_brm m c) (ix1 q) := by
  unfold resetBiasRow; rw [resetBias_eq, row_apply]; rfl
theorem inputCandBiasRow_apply (q : Fin 128) :
    inputCandBiasRow m c (ix2 (0 : Fin 1) q) = (arg_bci m c) (ix1 q) := by
  unfold inputCandBiasRow; rw [inputCandBias_eq, row_apply]
theorem memoryCandBiasRow_apply (q : Fin 128) :
    memoryCandBiasRow m c (ix2 (0 : Fin 1) q) = (arg_bcm m c) (ix1 q) := by
  unfold memoryCandBiasRow; rw [memoryCandBias_eq, row_apply]

end Cert.KernelIdeal.EntryValues

end
-- ==== Proof.KernelIdealArrayValue.lean ====
/-
  From blocks to the array: the result array after the run is the gated recurrent cell of the fourteen arguments.

  The grid has 128 points; point t stages rows 4096·t … 4096·t + 4095 of the two activation arrays and of the result
  array (block index (t, 0)), and the two fused matrices and the four bias rows whole (block index (0, 0), the same at
  every point). So entry (p, q) of a point's block is entry (4096·t + p, q) of the array, and what point t writes back
  — the body's stored value over the blocks at t — is, entry by entry, the cell of row 4096·t + p: the fused matrices'
  column groups are the six weight matrices, the paired bias rows are sums of two bias vectors, and a gate with the
  products added first and the biases added first is the gate with all four added from the left. The 128 blocks cover the
  524288 rows (row r lies in block r / 4096), so the array after the run is that one function everywhere.
-/
import proofs.«168314_j22892175687867_2_alg».proof.Proof.KernelIdealBlock
import proofs.«168314_j22892175687867_2_alg».proof.Proof.KernelIdealEntryValues

set_option maxRecDepth 16384

noncomputable section

namespace Cert.KernelIdeal.ArrayValue

open Cert.KernelIdeal Cert.KernelIdeal.Gen Cert.KernelIdeal.Entry Cert.KernelIdeal.Region
open Cert.KernelIdeal.Block Cert.KernelIdeal.EntryValues
open Idealize.ShloMosaic Idealize.ShloMosaic.TcCoe Idealize.SL.Sem Idealize.ShloMosaic.ValueIdx Cert.Gru
open Idealize.ShloMosaic.Pipeline (Dat)

variable (m : (ℓ : Loc nD τ sig) → Buf (Elt Ideal) ℓ) (ρ : Dev nD → PrngReg) (c : Dev nD)

/-! ## The block indices, decided over the 128 points -/

theorem blockIndices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_8.index t (0 : Fin 2) = t.val ∧ win0_8.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem point_lt (t : Fin cfg0.N) : t.val < 128 := lt_of_lt_of_eq t.isLt N_0

/-- Row `p` of point `t`'s block is row 4096·t + p of the array. -/
def rowOf (t : Fin cfg0.N) (p : Fin 4096) : Fin 524288 :=
  ⟨t.val * 4096 + p.val, by have := point_lt t; have := p.isLt; omega⟩

/-! ## The blocks read entry by entry -/

theorem inputBlock_apply (t : Fin cfg0.N) (p : Fin 4096) (k : Fin 128) :
    iblk m c 0 t (ix2 p k) = (arg_x m c) (ix2 (rowOf t p) k) := by
  unfold iblk
  show V m c main_arg0 (((cfg0.win 0).blk t).view.emb (ix2 p k)) = _
  rw [V_main_arg0]
  refine congrArg (m ((c : Thread nD τ).loc main_arg0)) (funext fun a => Fin.ext ?_)
  obtain ⟨⟨e0, e1⟩, -⟩ := blockIndices t
  match a with
  | ⟨0, _⟩ => show win0_0.index t (0 : Fin 2) * 4096 + 1 * p.val = t.val * 4096 + p.val; omega
  | ⟨1, _⟩ => show win0_0.index t (1 : Fin 2) * 128 + 1 * k.val = k.val; omega

theorem memoryBlock_apply (t : Fin cfg0.N) (p : Fin 4096) (k : Fin 128) :
    iblk m c 1 t (ix2 p k) = (arg_h m c) (ix2 (rowOf t p) k) := by
  unfold iblk
  show V m c main_arg1 (((cfg0.win 1).blk t).view.emb (ix2 p k)) = _
  rw [V_main_arg1]
  refine congrArg (m ((c : Thread nD τ).loc main_arg1)) (funext fun a => Fin.ext ?_)
  obtain ⟨-, ⟨e0, e1⟩, -⟩ := blockIndices t
  match a with
  | ⟨0, _⟩ => show win0_1.index t (0 : Fin 2) * 4096 + 1 * p.val = t.val * 4096 + p.val; omega
  | ⟨1, _⟩ => show win0_1.index t (1 : Fin 2) * 128 + 1 * k.val = k.val; omega

theorem fusedInputBlock_apply (t : Fin cfg0.N) (k : Fin 128) (q' : Fin 384) :
    iblk m c 2 t (ix2 k q') = fusedInput m c (ix2 k q') := by
  unfold iblk fusedInput
  show V m c main_v1 (((cfg0.win 2).blk t).view.emb (ix2 k q')) = _
  refine congrArg (V m c main_v1) (funext fun a => Fin.ext ?_)
  obtain ⟨-, -, -, ⟨e0, e1⟩, -⟩ := blockIndices t
  match a with
  | ⟨0, _⟩ => show win0_2.index t (0 : Fin 2) * 128 + 1 * k.val = k.val; omega
  | ⟨1, _⟩ => show win0_2.index t (1 : Fin 2) * 384 + 1 * q'.val = q'.val; omega

theorem fusedMemoryBlock_apply (t : Fin cfg0.N) (k : Fin 128) (q' : Fin 384) :
    iblk m c 3 t (ix2 k q') = fusedMemory m c (ix2 k q') := by
  unfold iblk fusedMemory
  show V m c main_v3 (((cfg0.win 3).blk t).view.emb (ix2 k q')) = _
  refine congrArg (V m c main_v3) (funext fun a => Fin.ext ?_)
  obtain ⟨-, -, -, -, ⟨e0, e1⟩, -⟩ := blockIndices t
  match a with
  | ⟨0, _⟩ => show win0_3.index t (0 : Fin 2) * 128 + 1 * k.val = k.val; omega
  | ⟨1, _⟩ => show win0_3.index t (1 : Fin 2) * 384 + 1 * q'.val = q'.val; omega

theorem updateBiasRowBlock_apply (t : Fin cfg0.N) (q : Fin 128) :
    iblk m c 4 t (ix2 (0 : Fin 1) q) = updateBiasRow m c (ix2 (0 : Fin 1) q) := by
  unfold iblk updateBiasRow
  show V m c main_v5 (((cfg0.win 4).blk t).view.emb (ix2 (0 : Fin 1) q)) = _
  refine congrArg (V m c main_v5) (funext fun a => Fin.ext ?_)
  obtain ⟨-, -, -, -, -, ⟨e0, e1⟩, -⟩ := blockIndices t
  match a with
  | ⟨0, _⟩ => show win0_4.index t (0 : Fin 2) * 1 + 1 * 0 = 0; omega
  | ⟨1, _⟩ => show win0_4.index t (1 : Fin 2) * 128 + 1 * q.val = q.val; omega

theorem resetBiasRowBlock_apply (t : Fin cfg0.N) (q : Fin 128) :
    iblk m c 5 t (ix2 (0 : Fin 1) q) = resetBiasRow m c (ix2 (0 : Fin 1) q) := by
  unfold iblk resetBiasRow
  show V m c main_v7 (((cfg0.win 5).blk t).view.emb (ix2 (0 : Fin 1) q)) = _
  refine congrArg (V m c main_v7) (funext fun a => Fin.ext ?_)
  obtain ⟨-, -, -, -, -, -, ⟨e0, e1⟩, -⟩ := blockIndices t
  match a with
  | ⟨0, _⟩ => show win0_5.index t (0 : Fin 2) * 1 + 1 * 0 = 0; omega
  | ⟨1, _⟩ => show win0_5.index t (1 : Fin 2) * 128 + 1 * q.val = q.val; omega

theorem inputCandBiasRowBlock_apply (t : Fin cfg0.N) (q : Fin 128) :
    iblk m c 6 t (ix2 (0 : Fin 1) q) = inputCandBiasRow m c (ix2 (0 : Fin 1) q) := by
  unfold iblk inputCandBiasRow
  show V m c main_v8 (((cfg0.win 6).blk t).view.emb (ix2 (0 : Fin 1) q)) = _
  refine congrArg (V m c main_v8) (funext fun a => Fin.ext ?_)
  obtain ⟨-, -, -, -, -, -, -, ⟨e0, e1⟩, -⟩ := blockIndices t
  match a with
  | ⟨0, _⟩ => show win0_6.index t (0 : Fin 2) * 1 + 1 * 0 = 0; omega
  | ⟨1, _⟩ => show win0_6.index t (1 : Fin 2) * 128 + 1 * q.val = q.val; omega

theorem memoryCandBiasRowBlock_apply (t : Fin cfg0.N) (q : Fin 128) :
    iblk m c 7 t (ix2 (0 : Fin 1) q) = memoryCandBiasRow m c (ix2 (0 : Fin 1) q) := by
  unfold iblk memoryCandBiasRow
  show V m c main_v9 (((cfg0.win 7).blk t).view.emb (ix2 (0 : Fin 1) q)) = _
  refine congrArg (V m c main_v9) (funext fun a => Fin.ext ?_)
  obtain ⟨-, -, -, -, -, -, -, -, e0, e1⟩ := blockIndices t
  match a with
  | ⟨0, _⟩ => show win0_7.index t (0 : Fin 2) * 1 + 1 * 0 = 0; omega
  | ⟨1, _⟩ => show win0_7.index t (1 : Fin 2) * 128 + 1 * q.val = q.val; omega

/-- Entry (p, q) of point `t`'s result block is entry (4096·t + p, q) of the result array. -/
theorem resultIndex (t : Fin cfg0.N) (p : Fin 4096) (q : Fin 128) :
    ((cfg0.win 8).blk t).view.emb (ix2 p q) = ix2 (rowOf t p) q := by
  funext a
  apply Fin.ext
  obtain ⟨-, -, ⟨e0, e1⟩, -⟩ := blockIndices t
  match a with
  | ⟨0, _⟩ => show win0_8.index t (0 : Fin 2) * 4096 + 1 * p.val = t.val * 4096 + p.val; omega
  | ⟨1, _⟩ => show win0_8.index t (1 : Fin 2) * 128 + 1 * q.val = q.val; omega

/-! ## What a point writes back -/

/-- The result array as one function of the argument arrays. -/
abbrev result : S524288x128.Idx → EReal := G (arg_x m c) (arg_h m c) (arg_Wzi m c) (arg_Wzm m c) (arg_Wri m c) (arg_Wrm m c) (arg_Wci m c) (arg_Wcm m c) (arg_bzi m c) (arg_bzm m c) (arg_bri m c) (arg_brm m c) (arg_bci m c) (arg_bcm m c)

/-- WHAT POINT `t` WRITES BACK is block `t` of the cell of the argument arrays. -/
theorem flushed_eq (t : Fin cfg0.N) :
    (dats m 0 c).flushed 8 t = ((cfg0.win 8).blk t).view.read (Elt Ideal) (result m c) := by
  show (cfg0.win 8).cut (grid0.coords t) ((dats m 0 c).after 8 t) = _
  rw [after_out]
  funext y
  obtain ⟨p, q, rfl⟩ : ∃ (p : Fin 4096) (q : Fin 128), y = ix2 p q := ⟨y 0, y 1, eq_ix2 y⟩
  show outBlock (F := Ideal) (iblk m c 0 t) (iblk m c 1 t) (iblk m c 2 t) (iblk m c 3 t) (iblk m c 4 t) (iblk m c 5 t) (iblk m c 6 t) (iblk m c 7 t) (ix2 p q)
    = result m c (((cfg0.win 8).blk t).view.emb (ix2 p q))
  rw [resultIndex]
  refine (outBlock_apply (iblk m c 0 t) (iblk m c 1 t) (iblk m c 2 t) (iblk m c 3 t) (iblk m c 4 t) (iblk m c 5 t) (iblk m c 6 t) (iblk m c 7 t) p q).trans ?_
  unfold rowCol
  have ex : ∀ k : Fin 128, iblk m c 0 t (ix2 p k) = (arg_x m c) (ix2 (rowOf t p) k) := fun k => inputBlock_apply m c t p k
  have eh : ∀ k : Fin 128, iblk m c 1 t (ix2 p k) = (arg_h m c) (ix2 (rowOf t p) k) := fun k => memoryBlock_apply m c t p k
  have ei0 : ∀ k : Fin 128, iblk m c 2 t (ix2 k (col 0 q)) = (arg_Wzi m c) (ix2 k q) := fun k =>
    (fusedInputBlock_apply m c t k _).trans (fusedInput_update m c k q _ (by simp [col]))
  have ei1 : ∀ k : Fin 128, iblk m c 2 t (ix2 k (col 1 q)) = (arg_Wri m c) (ix2 k q) := fun k =>
    (fusedInputBlock_apply m c t k _).trans (fusedInput_reset m c k q _ (by simp [col]))
  have ei2 : ∀ k : Fin 128, iblk m c 2 t (ix2 k (col 2 q)) = (arg_Wci m c) (ix2 k q) := fun k =>
    (fusedInputBlock_apply m c t k _).trans (fusedInput_cand m c k q _ (by simp [col]))
  have em0 : ∀ k : Fin 128, iblk m c 3 t (ix2 k (col 0 q)) = (arg_Wzm m c) (ix2 k q) := fun k =>
    (fusedMemoryBlock_apply m c t k _).trans (fusedMemory_update m c k q _ (by simp [col]))
  have em1 : ∀ k : Fin 128, iblk m c 3 t (ix2 k (col 1 q)) = (arg_Wrm m c) (ix2 k q) := fun k =>
    (fusedMemoryBlock_apply m c t k _).trans (fusedMemory_reset m c k q _ (by simp [col]))
  have em2 : ∀ k : Fin 128, iblk m c 3 t (ix2 k (col 2 q)) = (arg_Wcm m c) (ix2 k q) := fun k =>
    (fusedMemoryBlock_apply m c t k _).trans (fusedMemory_cand m c k q _ (by simp [col]))
  have ebz : iblk m c 4 t (ix2 (0 : Fin 1) q) = (arg_bzi m c) (ix1 q) + (arg_bzm m c) (ix1 q) :=
    (updateBiasRowBlock_apply m c t q).trans (updateBiasRow_apply m c q)
  have ebr : iblk m c 5 t (ix2 (0 : Fin 1) q) = (arg_bri m c) (ix1 q) + (arg_brm m c) (ix1 q) :=
    (resetBiasRowBlock_apply m c t q).trans (resetBiasRow_apply m c q)
  have ebci : iblk m c 6 t (ix2 (0 : Fin 1) q) = (arg_bci m c) (ix1 q) :=
    (inputCandBiasRowBlock_apply m c t q).trans (inputCandBiasRow_apply m c q)
  have ebcm : iblk m c 7 t (ix2 (0 : Fin 1) q) = (arg_bcm m c) (ix1 q) :=
    (memoryCandBiasRowBlock_apply m c t q).trans (memoryCandBiasRow_apply m c q)
  simp only [ex, eh, ei0, ei1, ei2, em0, em1, em2, ebz, ebr, ebci, ebcm]
  rw [gate_paired, gate_paired]
  rfl

/-! ## The cover, and the array after the run -/

/-- An index of the result array is in point `t`'s block iff each coordinate is in the block's range on its axis. -/
theorem mem_resultBlock (t : Fin cfg0.N) (i : S524288x128.Idx) :
    i ∈ ((cfg0.win 8).blk t).view.set ↔ ∀ a : Fin 2, win0_8.index t a * S4096x128.size a ≤ (i a).val ∧ (i a).val < win0_8.index t a * S4096x128.size a + S4096x128.size a := by
  show i ∈ ((View.whole main_v10).slice (win0_8.rect t)).set ↔ _
  rw [View.set_slice_whole, Rect.mem_set_unit]
  exact Iff.rfl

/-- Every entry of the result array lies in the block of the point its row selects. -/
theorem covered (i : S524288x128.Idx) :
    ∃ t : Fin cfg0.N, (cfg0.win 8).flush t = true ∧ i ∈ ((cfg0.win 8).blk t).view.set := by
  have hi0 : (i 0).val < 524288 := (i 0).isLt
  have hi1 : (i 1).val < 128 := (i 1).isLt
  let t : Fin cfg0.N := ⟨(i 0).val / 4096, by rw [show cfg0.N = 128 from N_0]; omega⟩
  have ht : t.val = (i 0).val / 4096 := rfl
  obtain ⟨-, -, ⟨e0, e1⟩, -⟩ := blockIndices t
  refine ⟨t, flush0_8 t, ?_⟩
  rw [mem_resultBlock]
  intro a
  match a with
  | ⟨0, _⟩ => show win0_8.index t (0 : Fin 2) * 4096 ≤ (i 0).val ∧ (i 0).val < win0_8.index t (0 : Fin 2) * 4096 + 4096; omega
  | ⟨1, _⟩ => show win0_8.index t (1 : Fin 2) * 128 ≤ (i 1).val ∧ (i 1).val < win0_8.index t (1 : Fin 2) * 128 + 128; omega

/-- THE RESULT ARRAY after the run is the cell of the argument arrays. -/
theorem final : (dats m 0 c).arrAt 8 cfg0.N = result m c :=
  (dats m 0 c).arrAt_eq_of_cover 8 (result m c) (fun t _ => flushed_eq m c t) covered

/-! ## The run, read -/

/-- Every weakly fair execution of the program terminates with the result array at the cell of the argument arrays and
    the argument arrays unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 8).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.ArrayValue

end
-- ==== Proof.ReferenceIsCell.lean ====
/-
  The reference program's result, read one operation at a time, is the gated recurrent cell of its fourteen
  arguments. Each of its six matrix products is a sum over the contracted index of a row entry times a column entry;
  each bias vector is broadcast along the rows; a gate is the quotient 1 / (1 + e^(−u)) with u the two products and the
  two biases added from the left — the cell's own spelling of the logistic function up to the float word of one.
-/
import proofs.«168314_j22892175687867_2_alg».proof.Proof.Gen.ReferenceIdeal.Read
import proofs.«168314_j22892175687867_2_alg».proof.Proof.GruCell

noncomputable section

namespace Cert.ReferenceIdeal.CellValue

open Cert.ReferenceIdeal Cert.ReferenceIdeal.Gen Cert.ReferenceIdeal.Read
open Idealize.ShloMosaic Idealize.ShloMosaic.ValueIdx Cert.Gru

/-- The result array of the reference, as the operations compose it, is the cell of the arguments. -/
theorem result_is_cell (x0 x1 : (⟨S524288x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) :
    val_main_v45 (F := Ideal) x0 x1 x2 x3 x4 x5 x6 x7 x8 x9 x10 x11 x12 x13
      = G x0 x1 x2 x4 x6 x8 x10 x12 x3 x5 x7 x9 x11 x13 := by
  funext i
  have el0 : ∀ k : Fin 128, lidx_main_v0 i k = ix2 (i 0) k := fun k => funext fun a => by
    match a with | ⟨0, _⟩ => rfl | ⟨1, _⟩ => rfl
  have er0 : ∀ k : Fin 128, ridx_main_v0 i k = ix2 k (i 1) := fun k => funext fun a => by
    match a with | ⟨0, _⟩ => rfl | ⟨1, _⟩ => rfl
  have el4 : ∀ k : Fin 128, lidx_main_v4 i k = ix2 (i 0) k := fun k => funext fun a => by
    match a with | ⟨0, _⟩ => rfl | ⟨1, _⟩ => rfl
  have er4 : ∀ k : Fin 128, ridx_main_v4 i k = ix2 k (i 1) := fun k => funext fun a => by
    match a with | ⟨0, _⟩ => rfl | ⟨1, _⟩ => rfl
  have el15 : ∀ k : Fin 128, lidx_main_v15 i k = ix2 (i 0) k := fun k => funext fun a => by
    match a with | ⟨0, _⟩ => rfl | ⟨1, _⟩ => rfl
  have er15 : ∀ k : Fin 128, ridx_main_v15 i k = ix2 k (i 1) := fun k => funext fun a => by
    match a with | ⟨0, _⟩ => rfl | ⟨1, _⟩ => rfl
  have el19 : ∀ k : Fin 128, lidx_main_v19 i k = ix2 (i 0) k := fun k => funext fun a => by
    match a with | ⟨0, _⟩ => rfl | ⟨1, _⟩ => rfl
  have er19 : ∀ k : Fin 128, ridx_main_v19 i k = ix2 k (i 1) := fun k => funext fun a => by
    match a with | ⟨0, _⟩ => rfl | ⟨1, _⟩ => rfl
  have el30 : ∀ k : Fin 128, lidx_main_v30 i k = ix2 (i 0) k := fun k => funext fun a => by
    match a with | ⟨0, _⟩ => rfl | ⟨1, _⟩ => rfl
  have er30 : ∀ k : Fin 128, ridx_main_v30 i k = ix2 k (i 1) := fun k => funext fun a => by
    match a with | ⟨0, _⟩ => rfl | ⟨1, _⟩ => rfl
  have el34 : ∀ k : Fin 128, lidx_main_v34 i k = ix2 (i 0) k := fun k => funext fun a => by
    match a with | ⟨0, _⟩ => rfl | ⟨1, _⟩ => rfl
  have er34 : ∀ k : Fin 128, ridx_main_v34 i k = ix2 k (i 1) := fun k => funext fun a => by
    match a with | ⟨0, _⟩ => rfl | ⟨1, _⟩ => rfl
  have eb1 : idx_main_v1 (idx_main_v2 i) = ix1 (i 1) := funext fun a => by
    match a with | ⟨0, _⟩ => rfl
  have eb6 : idx_main_v6 (idx_main_v7 i) = ix1 (i 1) := funext fun a => by
    match a with | ⟨0, _⟩ => rfl
  have eb16 : idx_main_v16 (idx_main_v17 i) = ix1 (i 1) := funext fun a => by
    match a with | ⟨0, _⟩ => rfl
  have eb21 : idx_main_v21 (idx_main_v22 i) = ix1 (i 1) := funext fun a => by
    match a with | ⟨0, _⟩ => rfl
  have eb31 : idx_main_v31 (idx_main_v32 i) = ix1 (i 1) := funext fun a => by
    match a with | ⟨0, _⟩ => rfl
  have eb35 : idx_main_v35 (idx_main_v36 i) = ix1 (i 1) := funext fun a => by
    match a with | ⟨0, _⟩ => rfl
  simp only [val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply,
    el0, er0, el4, er4, el15, er15, el19, er19, el30, er30, el34, er34, eb1, eb6, eb16, eb21, eb31, eb35,
    Ideal.addf_def, Ideal.subf_def, Ideal.mulf_def, Ideal.hostDivf_def, Ideal.hostNegf_def, Ideal.negf_def,
    Ideal.hostUnary_exp_def, Ideal.hostUnary_tanh_def, Ideal.ofBits_def]
  show cell (Ideal.div oneWord (oneWord + Ideal.exp (-(proj x0 x2 (i 0) (i 1) + x3 (ix1 (i 1)) + proj x1 x4 (i 0) (i 1) + x5 (ix1 (i 1))))))
      (Ideal.div oneWord (oneWord + Ideal.exp (-(proj x0 x6 (i 0) (i 1) + x7 (ix1 (i 1)) + proj x1 x8 (i 0) (i 1) + x9 (ix1 (i 1))))))
      (proj x0 x10 (i 0) (i 1)) (proj x1 x12 (i 0) (i 1)) (x11 (ix1 (i 1))) (x13 (ix1 (i 1))) (x1 i) = _
  rw [gate_spelled, gate_spelled]
  rfl

end Cert.ReferenceIdeal.CellValue

end
-- ==== Proof.lean ====
/-
  The kernel computes one step of a gated recurrent cell over 524288 rows of width 128, 4096 rows per grid point, with
  the three input-side weight matrices fused into one 128×384 matrix, the three memory-side ones likewise, and the two
  update biases and the two reset biases each added beforehand; the reference computes the same step with six separate
  matrix products and the logistic function spelled as a quotient.

  Both kernel programs run to the end, fault nowhere and leave their arguments unchanged: each body reads its eight
  input blocks whole and overwrites its output block whole, and no host operation writes an argument. The reference has
  no kernel; its run is its operations composed. No operation was rewritten in the idealized kernel. At the exact values
  the two results agree entry by entry: a narrowing of the float format is the identity, a block product is the sum over
  the contracted index, column group g of a fused matrix is matrix g, and a gate's argument — two products and two
  biases — is one sum of extended reals however it is grouped.
-/
import proofs.«168314_j22892175687867_2_alg».proof.Defs
import proofs.«168314_j22892175687867_2_alg».proof.Proof.Gen.Kernel
import proofs.«168314_j22892175687867_2_alg».proof.Proof.Gen.KernelIdeal
import proofs.«168314_j22892175687867_2_alg».proof.Proof.Gen.ReferenceIdeal
import proofs.«168314_j22892175687867_2_alg».proof.Proof.Gen.Pre_finite_inputs
import proofs.«168314_j22892175687867_2_alg».proof.Proof.Gen.ReferenceIdeal.Run
import proofs.«168314_j22892175687867_2_alg».proof.Proof.Gen.ReferenceIdeal.Read
import proofs.«168314_j22892175687867_2_alg».proof.Proof.KernelRegion
import proofs.«168314_j22892175687867_2_alg».proof.Proof.KernelIdealRegion
import proofs.«168314_j22892175687867_2_alg».proof.Proof.KernelIdealArrayValue
import proofs.«168314_j22892175687867_2_alg».proof.Proof.ReferenceIsCell
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Region.frame m ρ

/-- The idealized kernel program runs and keeps its arguments. -/
theorem frame_kernelIdeal : Cert.frame_KernelIdeal := fun m ρ _ => Cert.KernelIdeal.Region.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- At the exact values both programs end with the cell of the arguments in their result array. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v45_eq (F := Ideal) _ _ _ _ _ _ _ _ _ _ _ _ _ _).trans ?_
  rw [Cert.ReferenceIdeal.CellValue.result_is_cell]
  obtain ⟨h0, h1, h2, h3, h4, h5, h6, h7, h8, h9, h10, h11, h12, h13⟩ := hagree c
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
